-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.LibRsqrtSqrt.lean ====
/-
  Normalising by a standard deviation on the extended reals, with no finiteness hypothesis.

  A square is never negative there (`(±∞)² = +∞`), so a sum of squares, and its quotient by a positive real — a variance —
  is never negative, and a variance plus a positive `ε` is positive. And for a positive `v`, `+∞` included, multiplying
  by the reciprocal square root of `v` IS dividing by the square root of `v` (at `+∞` both are multiplication by `0`; at a
  positive real the extended inverse of `√v` is the real one). So `d · rsqrt (σ² + ε)` and `d / sqrt (σ² + ε)` agree for
  every `d`, whatever the row the variance was taken of holds. (At `v = 0` and at negative `v` the two differ: the
  positivity is needed.)
-/
import Idealize.ShloMosaic.PureOps.Ideal

namespace Cert.Lib.RsqrtSqrt

open Idealize.ShloMosaic

/-- A square is never negative on the extended reals: `(±∞)² = +∞`. -/
theorem mul_self_nonneg (d : EReal) : 0 ≤ d * d := by
  induction d using EReal.rec with
  | bot => rw [EReal.bot_mul_bot]; exact le_top
  | top => rw [EReal.top_mul_top]; exact le_top
  | coe r => rw [← EReal.coe_mul]; exact_mod_cast _root_.mul_self_nonneg r

/-- A finite sum of squares is never negative. -/
theorem sum_mul_self_nonneg {ι : Type*} (s : Finset ι) (f : ι → EReal) : 0 ≤ ∑ i ∈ s, f i * f i :=
  Finset.sum_nonneg fun i _ => mul_self_nonneg (f i)

/-- The quotient of a nonnegative extended real by a positive real is nonnegative. -/
theorem div_coe_nonneg {x : EReal} (hx : 0 ≤ x) {y : ℝ} (hy : 0 < y) : 0 ≤ Ideal.div x (y : EReal) := by
  rw [Ideal.div_coe hy.ne']
  exact EReal.mul_nonneg hx (by exact_mod_cast (one_div_pos.2 hy).le)

/-- A nonnegative extended real plus a positive one is positive. -/
theorem add_pos_of_nonneg_of_pos {v e : EReal} (hv : 0 ≤ v) (he : 0 < e) : 0 < v + e :=
  lt_of_lt_of_le he (le_add_of_nonneg_left hv)

/-- For a positive extended real `v` (`+∞` included) multiplying by `rsqrt v` is dividing by `sqrt v`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : (Real.sqrt r : EReal) ≠ 0 := by exact_mod_cast (Real.sqrt_pos.2 hr).ne'
    rw [Ideal.rsqrt_coe, if_neg (not_lt.2 hr.le), if_neg hr.ne', Ideal.sqrt_coe, if_neg (not_lt.2 hr.le), Ideal.div,
      if_neg hs, ← EReal.coe_inv]

/-- The single-precision pattern nearest `1e-5` (a layer normalisation's usual `ε`) denotes a positive real,
    `10995116 · 2⁻⁴⁰`. -/
theorem eps_1em5_pos : (0 : EReal) < Ideal.ofBits .f32 0x3727C5AC#32 := by
  have h : Ideal.ofBits .f32 0x3727C5AC#32 = ((10995116 * (2 : ℝ) ^ (-40 : ℤ) : ℝ) : EReal) := by
    simp [Ideal.ofBits, Ideal.ieee, -EReal.coe_mul]
  rw [h]
  exact_mod_cast (by positivity : (0 : ℝ) < 10995116 * (2 : ℝ) ^ (-40 : ℤ))

end Cert.Lib.RsqrtSqrt
-- ==== Proof.Spec.lean ====
/-
  The layer as one function of the argument arrays, index by index, on the extended reals, in the two arrangements
  in which it is computed, and the laws that join them.

  Row `r` of the output depends on row `r` of the adjacency matrix only. Its affine image is the row
  `o_l = Σ_k A(r,k) · Y(k,l) + b_l` with `Y = X · Wᵀ`, or, grouped the other way, `o_l = Σ_j (Σ_k A(r,k) · X(k,j)) · W(l,j) + b_l`:
  the two groupings of a product of three matrices, equal when the entries are finite (distributivity fails at the
  infinities). The row is then normalised: mean `μ = (Σ_l o_l) / 128`, variance `σ² = (Σ_l (o_l − μ)²) / 128`, and entry
  `q` becomes `max ((o_q − μ) · s · γ_q + β_q) 0`, the scale `s` being the reciprocal square root of `σ² + ε` multiplied in,
  or its square root divided by. A square is never negative on the extended reals, so `σ² + ε ≥ ε > 0` whatever the row
  holds, and for a positive (possibly infinite) `v` multiplying by `rsqrt v` IS dividing by `sqrt v`: the two
  normalisations agree on every row, finite or not.
-/
import Idealize.ShloMosaic.PureOps.Ideal
import Idealize.ShloMosaic.PureOps.Ideal.Laws
import Idealize.ShloMosaic.Lib.ValueIdx
import proofs.«145908_g34565896798994_cont_8to1_b_824_13_alg».proof.Proof.LibRealSums
import proofs.«145908_g34565896798994_cont_8to1_b_824_13_alg».proof.Proof.LibRsqrtSqrt

noncomputable section

namespace Cert.Spec

open Idealize.ShloMosaic Idealize.ShloMosaic.ValueIdx

/-! ## The three literals -/

/-- The divisor of both means: the pattern of `128.0`. -/
abbrev c128 : EReal := Ideal.ofBits .f32 0x43000000#32
/-- The variance's offset `ε`: the single-precision pattern nearest `1e-5`. -/
abbrev eps : EReal := Ideal.ofBits .f32 0x3727C5AC#32
/-- The floor of the final maximum: the pattern of `0.0`. -/
abbrev zero : EReal := Ideal.ofBits .f32 0x00000000#32

theorem c128_eq : c128 = ((128 : ℝ) : EReal) := by
  simp [c128, Ideal.ofBits, Ideal.ieee, -EReal.coe_mul]; norm_num

/-- `ε` is a positive real. -/
theorem eps_pos : (0 : EReal) < eps := Cert.Lib.RsqrtSqrt.eps_1em5_pos

/-! ## One row, normalised -/

/-- The mean of a row of 128 entries. -/
def meanK (o : Fin 128 → EReal) : EReal := Ideal.div (∑ l, o l) c128
/-- Its variance: the mean of the squared deviations. -/
def varK (o : Fin 128 → EReal) : EReal := Ideal.div (∑ l, (o l - meanK o) * (o l - meanK o)) c128
/-- The normalised row, scaled by `γ`, shifted by `β`, clamped at zero: the deviation TIMES the reciprocal square root. -/
def normK (o g b : Fin 128 → EReal) (q : Fin 128) : EReal :=
  max ((o q - meanK o) * Ideal.rsqrt (varK o + eps) * g q + b q) zero

/-- The same three with each sum started from the zero literal and the deviation DIVIDED by the square root. -/
def meanR (o : Fin 128 → EReal) : EReal := Ideal.div (zero + ∑ l, o l) c128
def varR (o : Fin 128 → EReal) : EReal := Ideal.div (zero + ∑ l, (o l - meanR o) * (o l - meanR o)) c128
def normR (o g b : Fin 128 → EReal) (q : Fin 128) : EReal :=
  max (Ideal.div (o q - meanR o) (Ideal.sqrt (varR o + eps)) * g q + b q) zero

theorem meanR_eq (o : Fin 128 → EReal) : meanR o = meanK o := by
  unfold meanR meanK; rw [show zero = 0 from Ideal.ofBits_zero_f32, zero_add]

theorem varR_eq (o : Fin 128 → EReal) : varR o = varK o := by
  unfold varR varK; rw [show zero = 0 from Ideal.ofBits_zero_f32, zero_add, meanR_eq]

/-- A variance is never negative: a sum of squares over a positive real. -/
theorem varK_nonneg (o : Fin 128 → EReal) : 0 ≤ varK o := by
  unfold varK
  rw [c128_eq]
  exact Cert.Lib.RsqrtSqrt.div_coe_nonneg (Cert.Lib.RsqrtSqrt.sum_mul_self_nonneg _ _) (by norm_num)

theorem varK_add_eps_pos (o : Fin 128 → EReal) : 0 < varK o + eps :=
  Cert.Lib.RsqrtSqrt.add_pos_of_nonneg_of_pos (varK_nonneg o) eps_pos

/-- The two normalisations of a row agree, whatever the row holds. -/
theorem normK_eq_normR (o g b : Fin 128 → EReal) : normK o g b = normR o g b := by
  funext q
  unfold normK normR
  rw [meanR_eq, varR_eq, Cert.Lib.RsqrtSqrt.mul_rsqrt_eq_div_sqrt _ _ (varK_add_eps_pos o)]

/-! ## The affine image of a row, grouped two ways -/

/-- `o_l = Σ_k a_k · (Σ_j x_{k,j} · w_{l,j}) + b_l`: the row of `A` against `Y = X · Wᵀ`. -/
def linK (a : Fin 10000 → EReal) (x : Fin 10000 → Fin 128 → EReal) (w : Fin 128 → Fin 128 → EReal) (b : Fin 128 → EReal)
    (l : Fin 128) : EReal :=
  (∑ k, a k * ∑ j, x k j * w l j) + b l

/-- `o_l = Σ_j (Σ_k a_k · x_{k,j}) · w_{l,j} + b_l`: the row of `A · X` against `Wᵀ`. -/
def linR (a : Fin 10000 → EReal) (x : Fin 10000 → Fin 128 → EReal) (w : Fin 128 → Fin 128 → EReal) (b : Fin 128 → EReal)
    (l : Fin 128) : EReal :=
  (∑ j, (∑ k, a k * x k j) * w l j) + b l

/-- The two groupings agree when `a`, `x` and `w` are finite (the bias may be anything). -/
theorem linK_eq_linR (a : Fin 10000 → EReal) (x : Fin 10000 → Fin 128 → EReal) (w : Fin 128 → Fin 128 → EReal)
    (b : Fin 128 → EReal) (ha : ∀ k, ∃ r : ℝ, a k = r) (hx : ∀ k j, ∃ r : ℝ, x k j = r) (hw : ∀ l j, ∃ r : ℝ, w l j = r) :
    linK a x w b = linR a x w b := by
  choose a' ha' using ha
  choose x' hx' using hx
  choose w' hw' using hw
  funext l
  unfold linK linR
  simp only [ha', hx', hw']
  rw [Cert.RealSums.assoc_row_col_coe a' x' (w' l)]

/-! ## The whole arrays -/

/-- Row `r`'s affine image read off the argument arrays, in the first grouping. -/
def rowK (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (r : Fin 10000) : Fin 128 → EReal :=
  linK (fun k => adj (ix2 r k)) (fun k j => x (ix2 k j)) (fun l j => w (ix2 l j)) (fun l => b (ix1 l))

/-- The same in the second grouping. -/
def rowR (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (r : Fin 10000) : Fin 128 → EReal :=
  linR (fun k => adj (ix2 r k)) (fun k j => x (ix2 k j)) (fun l j => w (ix2 l j)) (fun l => b (ix1 l))

/-- The layer's output at row `r`, column `q`: first grouping, reciprocal square root multiplied in. -/
def outK (x : (⟨2, ![10000, 128]⟩ : Shape).Idx → EReal) (adj : (⟨2, ![10000, 10000]⟩ : Shape).Idx → EReal)
    (w : (⟨2, ![128, 128]⟩ : Shape).Idx → EReal) (b g be : (⟨1, ![128]⟩ : Shape).Idx → EReal) (r : Fin 10000) (q : Fin 128) : EReal :=
  normK (rowK x adj w b r) (fun l => g (ix1 l)) (fun l => be (ix1 l)) q

/-- The layer's output at row `r`, column `q`: second grouping, square root divided by. -/
def outR (x : (⟨2, ![10000, 128]⟩ : Shape).Idx → EReal) (adj : (⟨2, ![10000, 10000]⟩ : Shape).Idx → EReal)
    (w : (⟨2, ![128, 128]⟩ : Shape).Idx → EReal) (b g be : (⟨1, ![128]⟩ : Shape).Idx → EReal) (r : Fin 10000) (q : Fin 128) : EReal :=
  normR (rowR x adj w b r) (fun l => g (ix1 l)) (fun l => be (ix1 l)) q

/-- The output array, first arrangement. -/
def GK (x : (⟨2, ![10000, 128]⟩ : Shape).Idx → EReal) (adj : (⟨2, ![10000, 10000]⟩ : Shape).Idx → EReal)
    (w : (⟨2, ![128, 128]⟩ : Shape).Idx → EReal) (b g be : (⟨1, ![128]⟩ : Shape).Idx → EReal) :
    (⟨2, ![10000, 128]⟩ : Shape).Idx → EReal :=
  fun i => outK x adj w b g be (i 0) (i 1)

/-- The output array, second arrangement. -/
def GR (x : (⟨2, ![10000, 128]⟩ : Shape).Idx → EReal) (adj : (⟨2, ![10000, 10000]⟩ : Shape).Idx → EReal)
    (w : (⟨2, ![128, 128]⟩ : Shape).Idx → EReal) (b g be : (⟨1, ![128]⟩ : Shape).Idx → EReal) :
    (⟨2, ![10000, 128]⟩ : Shape).Idx → EReal :=
  fun i => outR x adj w b g be (i 0) (i 1)

theorem GK_ix2 (x adj w b g be) (r : Fin 10000) (q : Fin 128) : GK x adj w b g be (ix2 r q) = outK x adj w b g be r q := rfl
theorem GR_ix2 (x adj w b g be) (r : Fin 10000) (q : Fin 128) : GR x adj w b g be (ix2 r q) = outR x adj w b g be r q := rfl

/-- The two arrangements are one array when `x`, `adj` and `w` are finite. -/
theorem GK_eq_GR (x : (⟨2, ![10000, 128]⟩ : Shape).Idx → EReal) (adj : (⟨2, ![10000, 10000]⟩ : Shape).Idx → EReal)
    (w : (⟨2, ![128, 128]⟩ : Shape).Idx → EReal) (b g be : (⟨1, ![128]⟩ : Shape).Idx → EReal)
    (hx : ∀ i, ∃ r : ℝ, x i = r) (hadj : ∀ i, ∃ r : ℝ, adj i = r) (hw : ∀ i, ∃ r : ℝ, w i = r) :
    GK x adj w b g be = GR x adj w b g be := by
  funext i
  unfold GK GR outK outR rowK rowR
  rw [linK_eq_linR _ _ _ _ (fun k => hadj _) (fun k j => hx _) (fun l j => hw _), normK_eq_normR]

end Cert.Spec

end
-- ==== Proof.Pieces.lean ====
/-
  What one grid point leaves behind, as values. At the first point the body stores `Y = X · Wᵀ` whole into the scratch
  it keeps for the rest of the sweep, reads it straight back, and stores its output block computed from that `Y`; at
  every later point it stores nothing into the scratch and computes its output block from what the scratch already
  holds. Each buffer is covered by ONE whole store, so what it ends holding is that store's value, and every load
  reads a whole buffer at the contents it was handed: the value is the body's arithmetic applied to the blocks.
-/
import proofs.«145908_g34565896798994_cont_8to1_b_824_13_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- After the first point the scratch holds `X · Wᵀ` of the two blocks the point was handed. -/
theorem scratch_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S10000x128 .f32) (h8 : a8.IsWhole) (hc : cond0_0 i) (x0 : Vec F S400x10000 .f32) (x1 : Vec F S10000x128 .f32) (x2 : Vec F S128x128 .f32) (x3 : Vec F S1x128 .f32) (x4 : Vec F S1x128 .f32) (x5 : Vec F S1x128 .f32) :
    sout0_A_0 c i a1 h1 a2 h2 a3 h3 a4 h4 a5 h5 a6 h6 a7 h7 a8 h8 hc x0 x1 x2 x3 x4 x5 = k0_pay1 x1 x2 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero origin]
  simp only [View.readAt_eq_ld, h2.read_unread, h3.read_unread, View.ld_unit_zero (S := S10000x128) origin,
    View.ld_unit_zero (S := S128x128) origin]

/-- The first point's output block: the body's arithmetic on the adjacency block, on the `X · Wᵀ` it has just stored
    (read back through the store that covers the scratch), and on the bias, scale and shift rows. -/
theorem block_first (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S10000x128 .f32) (h8 : a8.IsWhole) (hc : cond0_0 i) (x0 : Vec F S400x10000 .f32) (x1 : Vec F S10000x128 .f32) (x2 : Vec F S128x128 .f32) (x3 : Vec F S1x128 .f32) (x4 : Vec F S1x128 .f32) (x5 : Vec F S1x128 .f32) :
    out0_A_6 c i a1 h1 a2 h2 a3 h3 a4 h4 a5 h5 a6 h6 a7 h7 a8 h8 hc x0 x1 x2 x3 x4 x5 = k0_pay2 x0 (k0_pay1 x1 x2) x3 x4 x5 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero origin, View.readCov_unit_zero (S := S10000x128) _ origin]
  simp only [View.readAt_eq_ld, h1.read_unread, h2.read_unread, h3.read_unread, h4.read_unread, h5.read_unread, h6.read_unread,
    View.ld_unit_zero (S := S400x10000) origin, View.ld_unit_zero (S := S10000x128) origin,
    View.ld_unit_zero (S := S128x128) origin, View.ld_unit_zero (S := S1x128) origin]

/-- A later point's output block: the same arithmetic on what the scratch held when the point began. -/
theorem block_later (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole) (a8 : Memref sig .tc .vmem S10000x128 .f32) (h8 : a8.IsWhole) (hc : ¬cond0_0 i) (x0 : Vec F S400x10000 .f32) (x1 : Vec F S10000x128 .f32) (x2 : Vec F S128x128 .f32) (x3 : Vec F S1x128 .f32) (x4 : Vec F S1x128 .f32) (x5 : Vec F S1x128 .f32) (xs0 : Vec F S10000x128 .f32) :
    out0_B_6 c i a1 h1 a2 h2 a3 h3 a4 h4 a5 h5 a6 h6 a7 h7 a8 h8 hc x0 x1 x2 x3 x4 x5 xs0 = k0_pay2 x0 xs0 x3 x4 x5 := by
  unfold out0_B_6
  rw [View.read_writes_eq_canon _ _ _ (cover0_B_6 c i a1 h1 a2 h2 a3 h3 a4 h4 a5 h5 a6 h6 a7 h7 a8 h8 hc x0 x1 x2 x3 x4 x5 xs0)]
  unfold kernelRun0_B
  dsimp only
  sl_unfold_words
  rw [View.canon_unit_zero origin]
  simp only [View.readAt_eq_ld, h1.read_unread, h4.read_unread, h5.read_unread, h6.read_unread, h8.read_unread,
    View.ld_unit_zero (S := S400x10000) origin, View.ld_unit_zero (S := S10000x128) origin,
    View.ld_unit_zero (S := S1x128) origin]

end Cert.KernelIdeal.Pieces

end
-- ==== Proof.Sweep.lean ====
/-
  The sweep over the 25 grid points. The scratch is written once, at the first point, with `Y = X · Wᵀ` of the blocks
  that point was handed, and no later point writes it: after EVERY point it holds that same `Y` (by induction on the
  point). So every point's output block is the body's arithmetic on the point's own adjacency block, on that one `Y`,
  and on the bias, scale and shift rows.
-/
import proofs.«145908_g34565896798994_cont_8to1_b_824_13_alg».proof.Proof.Pieces

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Pieces

variable {F : FTy → Type} [FloatOps F]
variable (m : (ℓ : Loc nD τ sig) → Buf (Elt F) ℓ)

theorem grid_pos : 0 < cfg0.N := by rw [show cfg0.N = 25 from N_0]; decide

/-- The first grid point. -/
abbrev first : Fin cfg0.N := ⟨0, grid_pos⟩

/-- `Y = X · Wᵀ` as the first point computes it from its blocks of `X` and `W`. -/
def Y (c : Dev nD) : FVec F S10000x128 .f32 := k0_pay1 (iblk m c 1 first) (iblk m c 2 first)

/-- At the first point the scratch is left holding `X · Wᵀ` of that point's blocks. -/
theorem scratch_at_first (c : Dev nD) (t : Fin cfg0.N) (h0 : t.val % 25 = 0) :
    (outsAt0 m c t.val t.isLt).2 = k0_pay1 (iblk m c 1 t) (iblk m c 2 t) := by
  rw [outsAt0_A m c t h0]
  dsimp only
  rw [scratch_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]

/-- A later point leaves the scratch as the point before left it. -/
theorem scratch_at_later (c : Dev nD) (t : Fin cfg0.N) (h0 : ¬t.val % 25 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point the scratch holds `Y`: the first point stores it, the others leave it alone. -/
theorem scratch_eq (c : Dev nD) : ∀ (n : ℕ) (h : n < cfg0.N), (outsAt0 m c n h).2 = Y m c
  | 0, h => scratch_at_first m c ⟨0, h⟩ (Nat.zero_mod 25)
  | n + 1, h => by
    have hN : cfg0.N = 25 := N_0
    have hB : ¬(⟨n + 1, h⟩ : Fin cfg0.N).val % 25 = 0 := by dsimp only; omega
    exact (scratch_at_later m c ⟨n + 1, h⟩ hB).trans (scratch_eq c n _)

/-- Every point's output block is the body's arithmetic on its adjacency block and on `Y`. -/
theorem block_eq (c : Dev nD) (t : Fin cfg0.N) :
    (outsAt0 m c t.val t.isLt).1 = k0_pay2 (iblk m c 0 t) (Y m c) (iblk m c 3 t) (iblk m c 4 t) (iblk m c 5 t) := by
  have hN : cfg0.N = 25 := N_0
  by_cases h0 : t.val % 25 = 0
  · have ht : t = first := Fin.ext (by have := t.isLt; show t.val = 0; omega)
    rw [outsAt0_A m c t h0]
    dsimp only
    rw [block_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]
    unfold Y
    rw [ht]
  · rw [outsAt0_B m c t h0]
    dsimp only
    rw [block_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2,
      scratch_eq]

end Cert.KernelIdeal.Sweep

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«145908_g34565896798994_cont_8to1_b_824_13_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.PayloadRead.lean ====
/-
  The body's arithmetic read at an index, on the extended reals.

  The scratch payload is `Y = X · Wᵀ`: entry (k, l) is `Σ_j X(k,j) · W(l,j)` (the transposed operand read at swapped
  coordinates, the product into a zero accumulator a plain sum). The output payload is cut into its stages, each a
  function of ONE matrix variable so that it can be read at an index without carrying the product inside it: the
  affine image `A · Y + b` of the block; the column of row means; the deviations; the column of row variances (the row
  means of the squared deviations); and the normalised, scaled, shifted, clamped block. Row `p` of every stage
  depends on row `p` of the affine image only, and the last stage at (p, q) is `Cert.Spec.normK` of that row at `q`.
-/
import proofs.«145908_g34565896798994_cont_8to1_b_824_13_alg».proof.Proof.Gen.KernelIdeal.Skeleton
import proofs.«145908_g34565896798994_cont_8to1_b_824_13_alg».proof.Proof.Spec
import proofs.«145908_g34565896798994_cont_8to1_b_824_13_alg».proof.Proof.LibPlainDot
import proofs.«145908_g34565896798994_cont_8to1_b_824_13_alg».proof.Proof.LibRowSum
import proofs.«145908_g34565896798994_cont_8to1_b_824_13_alg».proof.Proof.LibHostDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadRead

open Cert.KernelIdeal Cert.KernelIdeal.Gen Idealize.ShloMosaic Idealize.ShloMosaic.ValueIdx

/-! ## The scratch payload -/

/-- `Y(k, l) = Σ_j X(k, j) · W(l, j)`. -/
theorem pay1_apply (x1 : Vec Ideal S10000x128 .f32) (x2 : Vec Ideal S128x128 .f32) (k : Fin 10000) (l : Fin 128) :
    k0_pay1 (F := Ideal) x1 x2 (ix2 k l) = ∑ j : Fin 128, x1 (ix2 k j) * x2 (ix2 l j) := by
  unfold k0_pay1
  rw [shapeCast_self]
  show matmul (DotDims.plain 10000 128 128) none x1 (transpose S128x128 [1, 0] x2 transposes_S128x128_p1_0_S128x128)
    (constant (F := Ideal) ⟨2, ![10000, 128]⟩ .f32 0x00000000#32) (ix2 k l) = _
  refine (Cert.PlainDot.matmul_zero_plain_apply none x1 _ k l).trans ?_
  refine Finset.sum_congr rfl fun j _ => congrArg (x1 (ix2 k j) * ·) ?_
  exact transpose_apply [1, 0] x2 transposes_S128x128_p1_0_S128x128 (ix2 j l) (ix2 l j) (fun b => match b with
    | ⟨0, _⟩ => rfl
    | ⟨1, _⟩ => rfl)

/-! ## The output payload, stage by stage -/

/-- The affine image of a block: `A · Y + b`, the bias row repeated down the block. -/
def aff (x0 : Vec Ideal S400x10000 .f32) (y : Vec Ideal S10000x128 .f32) (x3 : Vec Ideal S1x128 .f32) : FVec Ideal S400x128 .f32 :=
  addf (matmul (F := Ideal) (φ₁ := .f32) (φ₂ := .f32) dot_S400x10000_S10000x128_S400x128_1_0_0_1_n_n none x0 y (constant (F := Ideal) S400x128 .f32 0x00000000#32))
    (broadcastTo S400x128 (shapeCast S1x128 x3 shapeCasts_S1x128_S1x128) broadcasts_S1x128_S400x128)

/-- The column of row means of a block: each row's sum over its 128 entries, divided by the literal `128.0`. -/
def meanCol (v : FVec Ideal S400x128 .f32) : FVec Ideal S400x1 .f32 :=
  divf (shapeCast S400x1 (multiReduction (F := Ideal) .add [1] S400 v 0x00000000#32 reduces_S400x128_S400 (.inl rfl) rfl) shapeCasts_S400_S400x1)
    (broadcast S400x1 (Scalar.ofBits (F := Ideal) .f32 0x43000000#32))

/-- The deviations of a block from its row means. -/
def dev (v : FVec Ideal S400x128 .f32) : FVec Ideal S400x128 .f32 :=
  subf v (broadcastTo S400x128 (meanCol v) broadcasts_S400x1_S400x128)

/-- The normalised block: deviation times the reciprocal square root of (row variance + ε), times the scale row, plus the
    shift row, clamped below at zero. The row variances are the row means of the squared deviations. -/
def epi (v : FVec Ideal S400x128 .f32) (x4 x5 : Vec Ideal S1x128 .f32) : FVec Ideal S400x128 .f32 :=
  maximumf
    (addf
      (mulf
        (mulf (dev v)
          (broadcastTo S400x128
            (rsqrt (addf (meanCol (mulf (dev v) (dev v))) (broadcast S400x1 (Scalar.ofBits (F := Ideal) .f32 0x3727C5AC#32))))
            broadcasts_S400x1_S400x128))
        (broadcastTo S400x128 (shapeCast S1x128 x4 shapeCasts_S1x128_S1x128) broadcasts_S1x128_S400x128))
      (broadcastTo S400x128 (shapeCast S1x128 x5 shapeCasts_S1x128_S1x128) broadcasts_S1x128_S400x128))
    (broadcast S400x128 (Scalar.ofBits (F := Ideal) .f32 0x00000000#32))

/-- The printed output payload is these stages composed. -/
theorem pay2_eq (x0 : Vec Ideal S400x10000 .f32) (y : Vec Ideal S10000x128 .f32) (x3 x4 x5 : Vec Ideal S1x128 .f32) :
    k0_pay2 (F := Ideal) x0 y x3 x4 x5 = epi (aff x0 y x3) x4 x5 := rfl

/-- A row vector [1, 128] repeated down 400 rows, at (p, q), is its entry q. -/
theorem row_apply (x : Vec Ideal S1x128 .f32) (p : Fin 400) (q : Fin 128) :
    broadcastTo S400x128 (shapeCast S1x128 x shapeCasts_S1x128_S1x128) broadcasts_S1x128_S400x128 (ix2 p q) = x (ix2 (0 : Fin 1) q) := by
  rw [shapeCast_self]
  exact broadcastTo_1b_ab_apply x broadcasts_S1x128_S400x128 p q

/-- The affine image at (p, l): row p of the block against column l of `Y`, plus the bias at l. -/
theorem aff_apply (x0 : Vec Ideal S400x10000 .f32) (y : Vec Ideal S10000x128 .f32) (x3 : Vec Ideal S1x128 .f32) (p : Fin 400) (l : Fin 128) :
    aff x0 y x3 (ix2 p l) = (∑ k : Fin 10000, x0 (ix2 p k) * y (ix2 k l)) + x3 (ix2 (0 : Fin 1) l) := by
  unfold aff
  rw [addf_apply, row_apply]
  exact congrArg (· + x3 (ix2 (0 : Fin 1) l)) (Cert.PlainDot.matmul_zero_plain_apply none x0 y p l)

/-- The mean column at (p, ·) is the mean of row p. -/
theorem meanCol_apply (v : FVec Ideal S400x128 .f32) (p : Fin 400) (u : Fin 1) :
    meanCol v (ix2 p u) = Cert.Spec.meanK (fun l => v (ix2 p l)) := by
  unfold meanCol Cert.Spec.meanK
  rw [divf_apply]
  exact congrArg (Ideal.div · Cert.Spec.c128)
    (Cert.Lib.RowSum.rowsum_column v reduces_S400x128_S400 (.inl rfl) rfl shapeCasts_S400_S400x1 p u)

/-- The deviation at (p, l). -/
theorem dev_apply (v : FVec Ideal S400x128 .f32) (p : Fin 400) (l : Fin 128) :
    dev v (ix2 p l) = v (ix2 p l) - Cert.Spec.meanK (fun l => v (ix2 p l)) := by
  unfold dev
  rw [subf_apply, Cert.HostDot.broadcastTo_a1_ab_apply, meanCol_apply]

/-- The variance column at (p, ·) is the variance of row p. -/
theorem varCol_apply (v : FVec Ideal S400x128 .f32) (p : Fin 400) (u : Fin 1) :
    meanCol (mulf (dev v) (dev v)) (ix2 p u) = Cert.Spec.varK (fun l => v (ix2 p l)) := by
  rw [meanCol_apply]
  unfold Cert.Spec.varK Cert.Spec.meanK
  simp only [mulf_apply, dev_apply]
  rfl

/-- The normalised block at (p, q) is the normalised row p at q. -/
theorem epi_apply (v : FVec Ideal S400x128 .f32) (x4 x5 : Vec Ideal S1x128 .f32) (p : Fin 400) (q : Fin 128) :
    epi v x4 x5 (ix2 p q)
      = Cert.Spec.normK (fun l => v (ix2 p l)) (fun l => x4 (ix2 (0 : Fin 1) l)) (fun l => x5 (ix2 (0 : Fin 1) l)) q := by
  unfold epi Cert.Spec.normK
  rw [maximumf_apply, addf_apply, mulf_apply, mulf_apply, row_apply, row_apply, dev_apply,
    Cert.HostDot.broadcastTo_a1_ab_apply]
  show max ((v (ix2 p q) - _) * Ideal.rsqrt (meanCol (mulf (dev v) (dev v)) (ix2 p (0 : Fin 1)) + Cert.Spec.eps) * _ + _) Cert.Spec.zero = _
  rw [varCol_apply]

/-- The output payload at (p, q): the normalised affine image of row p of the block. -/
theorem pay2_apply (x0 : Vec Ideal S400x10000 .f32) (y : Vec Ideal S10000x128 .f32) (x3 x4 x5 : Vec Ideal S1x128 .f32)
    (p : Fin 400) (q : Fin 128) :
    k0_pay2 (F := Ideal) x0 y x3 x4 x5 (ix2 p q)
      = Cert.Spec.normK (fun l => (∑ k : Fin 10000, x0 (ix2 p k) * y (ix2 k l)) + x3 (ix2 (0 : Fin 1) l))
          (fun l => x4 (ix2 (0 : Fin 1) l)) (fun l => x5 (ix2 (0 : Fin 1) l)) q := by
  rw [pay2_eq, epi_apply]
  simp only [aff_apply]

end Cert.KernelIdeal.PayloadRead

end
-- ==== Proof.Blocks.lean ====
/-
  From blocks to the array. Grid point `t` is handed rows `400·t … 400·t + 399` of the adjacency matrix (all 10000
  columns), the whole of `X` and `W`, and the bias, scale and shift vectors stood up as rows [1, 128] by the host before
  the launch; it writes back rows `400·t … 400·t + 399` of the output. So entry (p, q) of what point `t` writes back is the
  layer's value `Cert.Spec.outK` at row `400·t + p`, column `q`, of the argument arrays; the 25 blocks tile the 10000 rows
  (row `r` lies in the block of point `r / 400`), and the output array after the run is `Cert.Spec.GK` of the arguments.
-/
import proofs.«145908_g34565896798994_cont_8to1_b_824_13_alg».proof.Proof.Gen.KernelIdeal.Value
import proofs.«145908_g34565896798994_cont_8to1_b_824_13_alg».proof.Proof.Sweep
import proofs.«145908_g34565896798994_cont_8to1_b_824_13_alg».proof.Proof.PayloadRead
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.PayloadRead

variable (m : (ℓ : Loc nD τ sig) → Buf (Elt Ideal) ℓ) (ρ : Dev nD → PrngReg)

/-- The layer's output as a function of the argument arrays as launched. -/
def G (c : Dev nD) : S10000x128.Idx → EReal :=
  Cert.Spec.GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## Where each window's block sits -/

/-- The block indices over the grid: the adjacency and output windows move down one block of rows per point; every
    other window stays at the origin. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of point `t`'s adjacency block is row `400·t + p` of the adjacency matrix. -/
theorem adj_block (c : Dev nD) (t : Fin cfg0.N) (p : Fin 400) (k : Fin 10000) (r : Fin 10000) (hr : r.val = t.val * 400 + p.val) :
    iblk m c 0 t (ix2 p k) = m ((c : Thread nD τ).loc main_arg1) (ix2 r k) := by
  rw [← V_main_arg1 m c]
  show V m c main_arg1 (((cfg0.win 0).blk t).view.emb (ix2 p k)) = V m c main_arg1 (ix2 r k)
  refine congrArg _ (funext fun a => Fin.ext ?_)
  obtain ⟨e0, e1, -⟩ := idx_facts t
  match a with
  | ⟨0, _⟩ => show win0_0.index t (0 : Fin 2) * 400 + 1 * p.val = r.val; omega
  | ⟨1, _⟩ => show win0_0.index t (1 : Fin 2) * 10000 + 1 * k.val = k.val; omega

/-- Every point's block of `X` is `X`. -/
theorem x_block (c : Dev nD) (t : Fin cfg0.N) (k : Fin 10000) (j : Fin 128) :
    iblk m c 1 t (ix2 k j) = m ((c : Thread nD τ).loc main_arg0) (ix2 k j) := by
  rw [← V_main_arg0 m c]
  show V m c main_arg0 (((cfg0.win 1).blk t).view.emb (ix2 k j)) = V m c main_arg0 (ix2 k j)
  refine congrArg _ (funext fun a => Fin.ext ?_)
  obtain ⟨-, -, -, -, e0, e1, -⟩ := idx_facts t
  match a with
  | ⟨0, _⟩ => show win0_1.index t (0 : Fin 2) * 10000 + 1 * k.val = k.val; omega
  | ⟨1, _⟩ => show win0_1.index t (1 : Fin 2) * 128 + 1 * j.val = j.val; omega

/-- Every point's block of `W` is `W`. -/
theorem w_block (c : Dev nD) (t : Fin cfg0.N) (l : Fin 128) (j : Fin 128) :
    iblk m c 2 t (ix2 l j) = m ((c : Thread nD τ).loc main_arg2) (ix2 l j) := by
  rw [← V_main_arg2 m c]
  show V m c main_arg2 (((cfg0.win 2).blk t).view.emb (ix2 l j)) = V m c main_arg2 (ix2 l j)
  refine congrArg _ (funext fun a => Fin.ext ?_)
  obtain ⟨-, -, -, -, -, -, e0, e1, -⟩ := idx_facts t
  match a with
  | ⟨0, _⟩ => show win0_2.index t (0 : Fin 2) * 128 + 1 * l.val = l.val; omega
  | ⟨1, _⟩ => show win0_2.index t (1 : Fin 2) * 128 + 1 * j.val = j.val; omega

/-- The three vectors as the region finds them: each stood up as a row [1, 128] by the host. -/
theorem bias_row (c : Dev nD) : (V m c main_v0 : S1x128.Idx → EReal) = shapeCast S1x128 (m ((c : Thread nD τ).loc main_arg3)) shapeCasts_S128_S1x128 := by
  dsimp only [Gen.V, Gen.hostOps0]; after_results; rfl
theorem scale_row (c : Dev nD) : (V m c main_v1 : S1x128.Idx → EReal) = shapeCast S1x128 (m ((c : Thread nD τ).loc main_arg4)) shapeCasts_S128_S1x128 := by
  dsimp only [Gen.V, Gen.hostOps0]; after_results; rfl
theorem shift_row (c : Dev nD) : (V m c main_v2 : S1x128.Idx → EReal) = shapeCast S1x128 (m ((c : Thread nD τ).loc main_arg5)) shapeCasts_S128_S1x128 := by
  dsimp only [Gen.V, Gen.hostOps0]; after_results; rfl

/-- Every point's bias block, at its one row, is the bias vector. -/
theorem bias_block (c : Dev nD) (t : Fin cfg0.N) (l : Fin 128) :
    iblk m c 3 t (ix2 (0 : Fin 1) l) = m ((c : Thread nD τ).loc main_arg3) (ix1 l) := by
  have e : ((cfg0.win 3).blk t).view.emb (ix2 (0 : Fin 1) l) = ix2 (0 : Fin 1) l := by
    refine funext fun a => Fin.ext ?_
    obtain ⟨-, -, -, -, -, -, -, -, e0, e1, -⟩ := idx_facts t
    match a with
    | ⟨0, _⟩ => show win0_3.index t (0 : Fin 2) * 1 + 1 * 0 = 0; omega
    | ⟨1, _⟩ => show win0_3.index t (1 : Fin 2) * 128 + 1 * l.val = l.val; omega
  show V m c main_v0 (((cfg0.win 3).blk t).view.emb (ix2 (0 : Fin 1) l)) = _
  rw [e, bias_row]
  exact shapeCast_a_1a_apply _ shapeCasts_S128_S1x128 (0 : Fin 1) l

/-- Every point's scale block, at its one row, is the scale vector. -/
theorem scale_block (c : Dev nD) (t : Fin cfg0.N) (l : Fin 128) :
    iblk m c 4 t (ix2 (0 : Fin 1) l) = m ((c : Thread nD τ).loc main_arg4) (ix1 l) := by
  have e : ((cfg0.win 4).blk t).view.emb (ix2 (0 : Fin 1) l) = ix2 (0 : Fin 1) l := by
    refine funext fun a => Fin.ext ?_
    obtain ⟨-, -, -, -, -, -, -, -, -, -, e0, e1, -⟩ := idx_facts t
    match a with
    | ⟨0, _⟩ => show win0_4.index t (0 : Fin 2) * 1 + 1 * 0 = 0; omega
    | ⟨1, _⟩ => show win0_4.index t (1 : Fin 2) * 128 + 1 * l.val = l.val; omega
  show V m c main_v1 (((cfg0.win 4).blk t).view.emb (ix2 (0 : Fin 1) l)) = _
  rw [e, scale_row]
  exact shapeCast_a_1a_apply _ shapeCasts_S128_S1x128 (0 : Fin 1) l

/-- Every point's shift block, at its one row, is the shift vector. -/
theorem shift_block (c : Dev nD) (t : Fin cfg0.N) (l : Fin 128) :
    iblk m c 5 t (ix2 (0 : Fin 1) l) = m ((c : Thread nD τ).loc main_arg5) (ix1 l) := by
  have e : ((cfg0.win 5).blk t).view.emb (ix2 (0 : Fin 1) l) = ix2 (0 : Fin 1) l := by
    refine funext fun a => Fin.ext ?_
    obtain ⟨-, -, -, -, -, -, -, -, -, -, -, -, e0, e1⟩ := idx_facts t
    match a with
    | ⟨0, _⟩ => show win0_5.index t (0 : Fin 2) * 1 + 1 * 0 = 0; omega
    | ⟨1, _⟩ => show win0_5.index t (1 : Fin 2) * 128 + 1 * l.val = l.val; omega
  show V m c main_v2 (((cfg0.win 5).blk t).view.emb (ix2 (0 : Fin 1) l)) = _
  rw [e, shift_row]
  exact shapeCast_a_1a_apply _ shapeCasts_S128_S1x128 (0 : Fin 1) l

/-! ## One written-back block -/

/-- The scratch's `Y`, at (k, l), is `Σ_j X(k,j) · W(l,j)` of the argument arrays. -/
theorem Y_apply (c : Dev nD) (k : Fin 10000) (l : Fin 128) :
    Sweep.Y m c (ix2 k l)
      = ∑ j : Fin 128, @HMul.hMul EReal EReal EReal _ (m ((c : Thread nD τ).loc main_arg0) (ix2 k j)) (m ((c : Thread nD τ).loc main_arg2) (ix2 l j)) := by
  unfold Sweep.Y
  rw [pay1_apply]
  simp only [x_block, w_block]

/-- Entry (p, q) of point `t`'s block is the layer's value at row `400·t + p`, column `q`. -/
theorem block_at (c : Dev nD) (t : Fin cfg0.N) (p : Fin 400) (q : Fin 128) (r : Fin 10000) (hr : r.val = t.val * 400 + p.val) :
    k0_pay2 (F := Ideal) (iblk m c 0 t) (Sweep.Y m c) (iblk m c 3 t) (iblk m c 4 t) (iblk m c 5 t) (ix2 p q) = G m c (ix2 r q) := by
  rw [pay2_apply]
  unfold G
  rw [Cert.Spec.GK_ix2]
  unfold Cert.Spec.outK Cert.Spec.rowK Cert.Spec.linK
  simp only [adj_block m c t p _ r hr, Y_apply, bias_block, scale_block, shift_block]

/-- The same for an index of the block given whole. -/
theorem block_read (c : Dev nD) (t : Fin cfg0.N) (j : S400x128.Idx) :
    k0_pay2 (F := Ideal) (iblk m c 0 t) (Sweep.Y m c) (iblk m c 3 t) (iblk m c 4 t) (iblk m c 5 t) j
      = G m c (((cfg0.win 6).blk t).view.emb j) := by
  obtain ⟨p, q, rfl⟩ : ∃ (p : Fin 400) (q : Fin 128), j = ix2 p q := ⟨j 0, j 1, eq_ix2 j⟩
  have hN : cfg0.N = 25 := N_0
  have hr : t.val * 400 + p.val < 10000 := by have := t.isLt; have := p.isLt; omega
  have e : ((cfg0.win 6).blk t).view.emb (ix2 p q) = ix2 (⟨t.val * 400 + p.val, hr⟩ : Fin 10000) q := by
    refine funext fun a => Fin.ext ?_
    obtain ⟨-, -, e0, e1, -⟩ := idx_facts t
    match a with
    | ⟨0, _⟩ => show win0_6.index t (0 : Fin 2) * 400 + 1 * p.val = t.val * 400 + p.val; omega
    | ⟨1, _⟩ => show win0_6.index t (1 : Fin 2) * 128 + 1 * q.val = q.val; omega
  rw [e]
  exact block_at m c t p q _ rfl

/-- WHAT POINT `t` WRITES BACK is block `t` of `G`. -/
theorem flushed_eq (c : Dev nD) (t : Fin cfg0.N) :
    (dats m 0 c).flushed 6 t = ((cfg0.win 6).blk t).view.read (Elt Ideal) (G m c) := by
  rw [Cert.KernelIdeal.Value.flushed6, Sweep.block_eq]
  funext j
  exact block_read m c t j

/-! ## The blocks tile the rows -/

/-- An index of the array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v3).slice (win0_6.rect t)).set ↔ _
  rw [View.set_slice_whole, Rect.mem_set_unit]
  exact Iff.rfl

/-- Row `r` lies in the block of point `r / 400`, and every point writes back. -/
theorem cover (i : S10000x128.Idx) : ∃ t : Fin cfg0.N, (cfg0.win 6).flush t = true ∧ i ∈ ((cfg0.win 6).blk t).view.set := by
  have hN : cfg0.N = 25 := N_0
  have hi0 : (i 0).val < 10000 := (i 0).isLt
  have hi1 : (i 1).val < 128 := (i 1).isLt
  have ht : (i 0).val / 400 < cfg0.N := by omega
  refine ⟨⟨(i 0).val / 400, ht⟩, flush0_6 _, ?_⟩
  rw [mem_blk]
  obtain ⟨-, -, e0, e1, -⟩ := idx_facts ⟨(i 0).val / 400, ht⟩
  have e0' : win0_6.index ⟨(i 0).val / 400, ht⟩ (0 : Fin 2) = (i 0).val / 400 := e0
  intro a
  match a with
  | ⟨0, _⟩ =>
    show win0_6.index ⟨(i 0).val / 400, ht⟩ (0 : Fin 2) * 400 ≤ (i 0).val ∧ (i 0).val < win0_6.index ⟨(i 0).val / 400, ht⟩ (0 : Fin 2) * 400 + 400
    omega
  | ⟨1, _⟩ =>
    show win0_6.index ⟨(i 0).val / 400, ht⟩ (1 : Fin 2) * 128 ≤ (i 1).val ∧ (i 1).val < win0_6.index ⟨(i 0).val / 400, ht⟩ (1 : Fin 2) * 128 + 128
    omega

/-- THE ARRAY after the run is `G` of the argument arrays. -/
theorem final (c : Dev nD) : (dats m 0 c).arrAt 6 cfg0.N = G m c :=
  (dats m 0 c).arrAt_eq_of_cover 6 (G m c) (fun t _ => flushed_eq m c t) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Blocks

end
-- ==== Proof.RefRead.lean ====
/-
  The reference program read index by index: its result array is the layer in the arrangement
  `Cert.Spec.GR` — each row of `adj · x` taken against `Wᵀ`, the bias added, then the row's mean and variance
  (each sum started from the zero literal), the deviation divided by the square root of the variance plus `ε`,
  scaled by `γ`, shifted by `β` and clamped at zero.

  The affine image of a row is read four times by the program (for the mean, for the two deviations and for the
  variance), so it is identified with `Cert.Spec.rowR` once, and the mean column and the variance column after it.
-/
import proofs.«145908_g34565896798994_cont_8to1_b_824_13_alg».proof.Proof.Gen.ReferenceIdeal.Read
import proofs.«145908_g34565896798994_cont_8to1_b_824_13_alg».proof.Proof.Spec
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx

/-! ## The index functions of the stages, at an index given by its coordinates -/

theorem lidx_v0 (r : Fin 10000) (c : Fin 128) (k : Fin 10000) : lidx_main_v0 (ix2 r c) k = ix2 r k :=
  funext fun a => Fin.ext (by match a with | ⟨0, _⟩ => rfl | ⟨1, _⟩ => rfl)
theorem ridx_v0 (r : Fin 10000) (c : Fin 128) (k : Fin 10000) : ridx_main_v0 (ix2 r c) k = ix2 k c :=
  funext fun a => Fin.ext (by match a with | ⟨0, _⟩ => rfl | ⟨1, _⟩ => rfl)
theorem idx_v1 (a b : Fin 128) : idx_main_v1 (ix2 a b) = ix2 b a :=
  funext fun d => Fin.ext (by match d with | ⟨0, _⟩ => rfl | ⟨1, _⟩ => rfl)
theorem lidx_v2 (r : Fin 10000) (l k : Fin 128) : lidx_main_v2 (ix2 r l) k = ix2 r k :=
  funext fun a => Fin.ext (by match a with | ⟨0, _⟩ => rfl | ⟨1, _⟩ => rfl)
theorem ridx_v2 (r : Fin 10000) (l k : Fin 128) : ridx_main_v2 (ix2 r l) k = ix2 k l :=
  funext fun a => Fin.ext (by match a with | ⟨0, _⟩ => rfl | ⟨1, _⟩ => rfl)
theorem idx_v3 (u : Fin 1) (l : Fin 128) : idx_main_v3 (ix2 u l) = ix1 l :=
  funext fun a => Fin.ext (by match a with | ⟨0, _⟩ => rfl)
theorem idx_v4 (r : Fin 10000) (l : Fin 128) : idx_main_v4 (ix2 r l) = ix2 (0 : Fin 1) l :=
  funext fun a => Fin.ext (by match a with | ⟨0, _⟩ => rfl | ⟨1, _⟩ => rfl)
theorem idx_v6 (r : Fin 10000) (k : Fin 128) : idx_main_v6 (ix1 r) k = ix2 r k :=
  funext fun a => Fin.ext (by match a with | ⟨0, _⟩ => rfl | ⟨1, _⟩ => rfl)
theorem idx_v7 (r : Fin 10000) (u : Fin 1) : idx_main_v7 (ix2 r u) = ix1 r :=
  funext fun a => Fin.ext (by match a with | ⟨0, _⟩ => rfl)
theorem idx_v10 (r : Fin 10000) (l : Fin 128) : idx_main_v10 (ix2 r l) = ix2 r (0 : Fin 1) :=
  funext fun a => Fin.ext (by match a with | ⟨0, _⟩ => rfl | ⟨1, _⟩ => rfl)
theorem idx_v13 (r : Fin 10000) (k : Fin 128) : idx_main_v13 (ix1 r) k = ix2 r k :=
  funext fun a => Fin.ext (by match a with | ⟨0, _⟩ => rfl | ⟨1, _⟩ => rfl)
theorem idx_v14 (r : Fin 10000) (u : Fin 1) : idx_main_v14 (ix2 r u) = ix1 r :=
  funext fun a => Fin.ext (by match a with | ⟨0, _⟩ => rfl)
theorem idx_v17 (r : Fin 10000) (l : Fin 128) : idx_main_v17 (ix2 r l) = ix2 r (0 : Fin 1) :=
  funext fun a => Fin.ext (by match a with | ⟨0, _⟩ => rfl | ⟨1, _⟩ => rfl)
theorem idx_v22 (r : Fin 10000) (l : Fin 128) : idx_main_v22 (ix2 r l) = ix2 r (0 : Fin 1) :=
  funext fun a => Fin.ext (by match a with | ⟨0, _⟩ => rfl | ⟨1, _⟩ => rfl)
theorem idx_v24 (u : Fin 1) (l : Fin 128) : idx_main_v24 (ix2 u l) = ix1 l :=
  funext fun a => Fin.ext (by match a with | ⟨0, _⟩ => rfl)
theorem idx_v25 (r : Fin 10000) (l : Fin 128) : idx_main_v25 (ix2 r l) = ix2 (0 : Fin 1) l :=
  funext fun a => Fin.ext (by match a with | ⟨0, _⟩ => rfl | ⟨1, _⟩ => rfl)
theorem idx_v27 (u : Fin 1) (l : Fin 128) : idx_main_v27 (ix2 u l) = ix1 l :=
  funext fun a => Fin.ext (by match a with | ⟨0, _⟩ => rfl)
theorem idx_v28 (r : Fin 10000) (l : Fin 128) : idx_main_v28 (ix2 r l) = ix2 (0 : Fin 1) l :=
  funext fun a => Fin.ext (by match a with | ⟨0, _⟩ => rfl | ⟨1, _⟩ => rfl)

section
variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 x4 x5 : (⟨S128, .f32⟩ : BufTy).Contents (Elt Ideal))

/-! ## The affine image -/

/-- `%5` at row `r`, column `l`: the row of `adj · x` against row `l` of `W`, plus the bias. -/
theorem v5_ix2 (r : Fin 10000) (l : Fin 128) :
    val_main_v5 (F := Ideal) x0 x1 x2 x3 (ix2 r l) = Cert.Spec.rowR x0 x1 x2 x3 r l := by
  rw [val_main_v5_apply, val_main_v2_apply, val_main_v4_apply, val_main_v3_apply]
  simp only [val_main_v0_apply, val_main_v1_apply, lidx_v2, ridx_v2, lidx_v0, ridx_v0, idx_v1, idx_v4, idx_v3,
    Ideal.addf_def]
  rfl

/-! ## The mean column -/

/-- `%9` at row `r`: the mean of the row's affine image, the sum started from the zero literal. -/
theorem v9_ix2 (r : Fin 10000) (u : Fin 1) :
    val_main_v9 (F := Ideal) x0 x1 x2 x3 (ix2 r u) = Cert.Spec.meanR (Cert.Spec.rowR x0 x1 x2 x3 r) := by
  rw [val_main_v9_apply, val_main_v7_apply, val_main_v8_apply, val_main_cst_0_apply, idx_v7, val_main_v6_apply,
    val_main_cst_apply]
  simp only [idx_v6, v5_ix2, Ideal.hostDivf_def, Ideal.ofBits_def]
  rfl

/-! ## The variance column -/

/-- `%11` at row `r`, column `l`: the deviation from the mean. -/
theorem v11_ix2 (r : Fin 10000) (l : Fin 128) :
    val_main_v11 (F := Ideal) x0 x1 x2 x3 (ix2 r l)
      = Cert.Spec.rowR x0 x1 x2 x3 r l - Cert.Spec.meanR (Cert.Spec.rowR x0 x1 x2 x3 r) := by
  rw [val_main_v11_apply, val_main_v10_apply, idx_v10, v9_ix2, v5_ix2, Ideal.subf_def]

/-- `%16` at row `r`: the mean of the squared deviations, the sum started from the zero literal. -/
theorem v16_ix2 (r : Fin 10000) (u : Fin 1) :
    val_main_v16 (F := Ideal) x0 x1 x2 x3 (ix2 r u) = Cert.Spec.varR (Cert.Spec.rowR x0 x1 x2 x3 r) := by
  rw [val_main_v16_apply, val_main_v14_apply, val_main_v15_apply, val_main_cst_2_apply, idx_v14, val_main_v13_apply,
    val_main_cst_1_apply]
  simp only [idx_v13, val_main_v12_apply, v11_ix2, Ideal.hostDivf_def, Ideal.mulf_def, Ideal.ofBits_def]
  rfl

/-! ## The normalised row -/

/-- `%23` at row `r`, column `q`: the deviation divided by the square root of the variance plus `ε`. -/
theorem v23_ix2 (r : Fin 10000) (q : Fin 128) :
    val_main_v23 (F := Ideal) x0 x1 x2 x3 (ix2 r q)
      = Ideal.div (Cert.Spec.rowR x0 x1 x2 x3 r q - Cert.Spec.meanR (Cert.Spec.rowR x0 x1 x2 x3 r))
          (Ideal.sqrt (Cert.Spec.varR (Cert.Spec.rowR x0 x1 x2 x3 r) + Cert.Spec.eps)) := by
  rw [val_main_v23_apply, val_main_v18_apply, val_main_v17_apply, idx_v17, v9_ix2, v5_ix2, val_main_v22_apply, idx_v22,
    val_main_v21_apply, val_main_v20_apply, v16_ix2, val_main_v19_apply, val_main_cst_3_apply]
  simp only [Ideal.hostDivf_def, Ideal.subf_def, Ideal.addf_def, Ideal.hostUnary_sqrt_def, Ideal.ofBits_def]

/-- The result at row `r`, column `q`. -/
theorem v30_ix2 (r : Fin 10000) (q : Fin 128) :
    val_main_v30 (F := Ideal) x0 x1 x2 x3 x4 x5 (ix2 r q) = Cert.Spec.outR x0 x1 x2 x3 x4 x5 r q := by
  rw [val_main_v30_apply, val_main_v29_apply, val_main_v26_apply, v23_ix2, val_main_v25_apply, idx_v25,
    val_main_v24_apply, idx_v24, val_main_v28_apply, idx_v28, val_main_v27_apply, idx_v27, val_main_call0_v0_apply,
    val_main_call0_cst_apply]
  simp only [Ideal.maximumf_def, Ideal.addf_def, Ideal.mulf_def, Ideal.ofBits_def]
  rfl

end

/-- The reference's result is the layer in the reference's arrangement. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 x4 x5 : (⟨S128, .f32⟩ : BufTy).Contents (Elt Ideal)) :
    Cert.ReferenceIdeal.Read.val_main_v30 (F := Ideal) x0 x1 x2 x3 x4 x5 = Cert.Spec.GR x0 x1 x2 x3 x4 x5 := by
  funext i
  obtain ⟨r, q, rfl⟩ : ∃ (r : Fin 10000) (q : Fin 128), i = ix2 r q := ⟨i 0, i 1, eq_ix2 i⟩
  rw [v30_ix2, Cert.Spec.GR_ix2]

end Cert.RefRead

end
-- ==== Proof.FiniteInputs.lean ====
/-
  Finiteness of the inputs, read back from the precondition.

  The precondition is a conjunction of six statements "every entry x of the array satisfies |x| < +inf",
  one per input array, each a reduction by logical and of the entrywise comparisons. Over the extended reals
  |x| is max x (-x), and the comparison bound, the bit pattern 0x7F800000 of the 32-bit format, denotes the
  top element. Since max x (-x) equals the top element exactly when x is the top or the bottom element,
  |x| < +inf says x is a real number. Here this is drawn out for the first three arrays.
-/
import proofs.«145908_g34565896798994_cont_8to1_b_824_13_alg».proof.Pre_finite_inputs
import proofs.«145908_g34565896798994_cont_8to1_b_824_13_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- A rank-0 shape has exactly one index: there is no axis to give a coordinate on. -/
instance subsingleton_S_ : Subsingleton S_.Idx := ⟨fun a b => funext fun d => d.elim0⟩

/-- An extended real whose absolute value max x (-x) lies strictly below the top element is a real number:
    at the bottom element -x is the top, at the top element x is, and either way the maximum is the top. -/
theorem real_of_abs_lt_top (x : EReal) (h : max x (-x) < ⊤) : ∃ r : ℝ, x = (r : EReal) := by
  induction x using EReal.rec with
  | bot => simp at h
  | coe r => exact ⟨r, rfl⟩
  | top => simp at h

/-- A truth value read as a one-bit word is the word 1 exactly when it is true. -/
theorem ofBool_eq_one (b : Bool) : BitVec.ofBool b = 1#1 ↔ b = true := by cases b <;> decide

/-- The pattern 0x7F800000 (sign 0, exponent all ones, fraction 0) denotes the top element. -/
theorem inf_pattern : Ideal.ofBits .f32 0x7F800000#32 = (⊤ : EReal) := by simp [Ideal.ofBits, Ideal.ieee]

/-- One entry: if the comparison |x i| < +inf, against the scalar +inf broadcast over the array, came out 1,
    then x i is a real number. -/
theorem elt_real {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  apply real_of_abs_lt_top
  -- entry i of the comparison is the order's "less than" between max (x i) (-x i) and the constant's value
  change Ideal.cmp .olt (max (x i) (-x i)) (Ideal.ofBits .f32 0x7F800000#32) = 1#1 at h
  rw [inf_pattern] at h
  unfold Ideal.cmp at h
  rw [ofBool_eq_one] at h
  exact of_decide_eq_true h

/-- The precondition, evaluated to all ones, makes every entry of the first three arrays a real number.
    The result of the precondition has one index; there it is a six-fold and of the six reductions, so each
    reduction is 1; a reduction by and over all axes that is 1 had a 1 at every entry; and an entry of the
    comparison array that is 1 says the compared entry is real. -/
theorem real_of_pre [Cert.Pre_finite_inputs.Facts] (x0 : FVec Ideal S10000x128 .f32) (x1 : FVec Ideal S10000x10000 .f32)
    (x2 : FVec Ideal S128x128 .f32) (x3 x4 x5 : FVec Ideal S128 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [fn, fn_part1] at e
  simp only [andi, IntOp.andi_eq_one] at e
  obtain ⟨⟨⟨⟨⟨h0, h1⟩, h2⟩, -⟩, -⟩, -⟩ := e
  exact ⟨fun i => elt_real _ x0 i (Host.reduce_andi_all _ _ _ _ _ h0 i),
    fun i => elt_real _ x1 i (Host.reduce_andi_all _ _ _ _ _ h1 i),
    fun i => elt_real _ x2 i (Host.reduce_andi_all _ _ _ _ _ h2 i)⟩

end Cert.FiniteInputs

end
-- ==== Proof.lean ====
/-
  The certificate of a graph-convolution layer with layer normalisation, `relu (LN (adj · x · Wᵀ + b))`, computed by a
  kernel that keeps `Y = x · Wᵀ` in a scratch for its whole sweep and takes 400 rows of `adj` against it per grid point,
  against the plain formula that multiplies `adj · x` first.

  The three programs run, and leave their arguments alone (the frames). Nothing of the kernel was rewritten for its
  idealisation. And on the extended reals the two results are one array: the kernel's is `Cert.Spec.GK` of the
  arguments (the sweep read block by block), the formula's is `Cert.Spec.GR` (its operations read one by one), and the two
  agree because (i) the inputs are finite, so the product of three matrices may be grouped either way, and (ii) a
  variance plus a positive `ε` is positive, so multiplying by its reciprocal square root is dividing by its square root.
-/
import proofs.«145908_g34565896798994_cont_8to1_b_824_13_alg».proof.Defs
import proofs.«145908_g34565896798994_cont_8to1_b_824_13_alg».proof.Proof.Gen.Kernel
import proofs.«145908_g34565896798994_cont_8to1_b_824_13_alg».proof.Proof.Gen.Kernel.Skeleton
import proofs.«145908_g34565896798994_cont_8to1_b_824_13_alg».proof.Proof.Gen.Kernel.Launch
import proofs.«145908_g34565896798994_cont_8to1_b_824_13_alg».proof.Proof.Gen.Kernel.Points
import proofs.«145908_g34565896798994_cont_8to1_b_824_13_alg».proof.Proof.Gen.Kernel.Frame
import proofs.«145908_g34565896798994_cont_8to1_b_824_13_alg».proof.Proof.Gen.KernelIdeal
import proofs.«145908_g34565896798994_cont_8to1_b_824_13_alg».proof.Proof.Gen.KernelIdeal.Skeleton
import proofs.«145908_g34565896798994_cont_8to1_b_824_13_alg».proof.Proof.Gen.KernelIdeal.Launch
import proofs.«145908_g34565896798994_cont_8to1_b_824_13_alg».proof.Proof.Gen.KernelIdeal.Points
import proofs.«145908_g34565896798994_cont_8to1_b_824_13_alg».proof.Proof.Gen.KernelIdeal.Frame
import proofs.«145908_g34565896798994_cont_8to1_b_824_13_alg».proof.Proof.Gen.ReferenceIdeal
import proofs.«145908_g34565896798994_cont_8to1_b_824_13_alg».proof.Proof.Gen.Pre_finite_inputs
import proofs.«145908_g34565896798994_cont_8to1_b_824_13_alg».proof.Proof.Gen.KernelIdeal.Value
import proofs.«145908_g34565896798994_cont_8to1_b_824_13_alg».proof.Proof.Gen.ReferenceIdeal.Run
import proofs.«145908_g34565896798994_cont_8to1_b_824_13_alg».proof.Proof.Gen.ReferenceIdeal.Read
import proofs.«145908_g34565896798994_cont_8to1_b_824_13_alg».proof.Proof.Spec
import proofs.«145908_g34565896798994_cont_8to1_b_824_13_alg».proof.Proof.Blocks
import proofs.«145908_g34565896798994_cont_8to1_b_824_13_alg».proof.Proof.RefRead
import proofs.«145908_g34565896798994_cont_8to1_b_824_13_alg».proof.Proof.FiniteInputs
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The formula's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at one array: the kernel's `GK` of its arguments, the formula's `GR` of arguments that agree with them,
    equal because the inputs `x`, `adj` and `W` are finite. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.RefRead.ref_eq]
  obtain ⟨a0, a1, a2, a3, a4, a5⟩ := hagree c
  rw [a0, a1, a2, a3, a4, a5]
  obtain ⟨hx, hadj, hw⟩ := Cert.FiniteInputs.real_of_pre _ _ _ _ _ _ (hpre c)
  exact (Cert.Spec.GK_eq_GR _ _ _ _ _ _ hx hadj hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
